-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x128 : Shape := ⟨2, ![1000000, 128]⟩
abbrev S1000000 : Shape := ⟨1, ![1000000]⟩
abbrev S64x128 : Shape := ⟨2, ![64, 128]⟩
abbrev S64 : Shape := ⟨1, ![64]⟩
abbrev S1x64 : Shape := ⟨2, ![1, 64]⟩
abbrev S1 : Shape := ⟨1, ![1]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S1x64 1) : IVec S_ 1 :=
  let main_c_5 : IVec S_ 1 := constantI S_ 1 1#1
  let main_v17 : IVec S_ 1 := (fun x v => Host.reduce IntOp.andi x v reducesTo_S1x64_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S1000000x128 .f32) (main_arg1 : IVec S1000000 32) (main_arg2 : FVec F S64x128 .f32) (main_arg3 : FVec F S64 .f32) (main_arg4 : FVec F S1x64 .f32) (main_arg5 : FVec F S1 .f32) : IVec S_ 1 :=
  let main_v0 : FVec F S1000000x128 .f32 := Host.absf main_arg0
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S1x64 .f32 := Host.absf main_arg4
  let main_cst_4 : FVec F S_ .f32 := constant S_ .f32 0x7F800000#32
  let main_v15 : FVec F S1x64 .f32 := broadcastInDim S1x64 ![] bcast_S_S1x64 main_cst_4
  let main_v16 : IVec S1x64 1 := cmpf .olt main_v14 main_v15
  fn_part1 (F := F) main_arg5 main_v13 main_v16
-- ==== Kernel.lean ====
abbrev S1000000x128 : Shape := ⟨2, ![1000000, 128]⟩
abbrev S1000000 : Shape := ⟨1, ![1000000]⟩
abbrev S64x128 : Shape := ⟨2, ![64, 128]⟩
abbrev S64 : Shape := ⟨1, ![64]⟩
abbrev S1x64 : Shape := ⟨2, ![1, 64]⟩
abbrev S1 : Shape := ⟨1, ![1]⟩
abbrev S_ : Shape := ⟨0, ![]⟩
abbrev S1015808x128 : Shape := ⟨2, ![1015808, 128]⟩
abbrev S128x64 : Shape := ⟨2, ![128, 64]⟩
abbrev S1x1 : Shape := ⟨2, ![1, 1]⟩
abbrev S62x1x16384 : Shape := ⟨3, ![62, 1, 16384]⟩
abbrev S16384x128 : Shape := ⟨2, ![16384, 128]⟩
abbrev S1x1x16384 : Shape := ⟨3, ![1, 1, 16384]⟩
abbrev S16384x64 : Shape := ⟨2, ![16384, 64]⟩
abbrev S16384 : Shape := ⟨1, ![16384]⟩
abbrev S1015808 : Shape := ⟨1, ![1015808]⟩
abbrev S4096 : Shape := ⟨1, ![4096]⟩
abbrev S1000000x1 : Shape := ⟨2, ![1000000, 1]⟩

abbrev nBuf : Space → Nat
  | .hbm => 19
  | .vmem => 8
  | .smem => 0
  | _ => 0

abbrev bufTy : (tb : Table) → Fin (tcTables nBuf tb) → BufTy
  | .hbm, ⟨0, _⟩ => ⟨S1000000x128, .f32⟩
  | .hbm, ⟨1, _⟩ => ⟨S1000000, .i32⟩
  | .hbm, ⟨2, _⟩ => ⟨S64x128, .f32⟩
  | .hbm, ⟨3, _⟩ => ⟨S64, .f32⟩
  | .hbm, ⟨4, _⟩ => ⟨S1x64, .f32⟩
  | .hbm, ⟨5, _⟩ => ⟨S1, .f32⟩
  | .hbm, ⟨6, _⟩ => ⟨S_, .i32⟩
  | .hbm, ⟨7, _⟩ => ⟨S_, .f32⟩
  | .hbm, ⟨8, _⟩ => ⟨S1015808x128, .f32⟩
  | .hbm, ⟨9, _⟩ => ⟨S128x64, .f32⟩
  | .hbm, ⟨10, _⟩ => ⟨S1x64, .f32⟩
  | .hbm, ⟨11, _⟩ => ⟨S1x1, .f32⟩
  | .hbm, ⟨12, _⟩ => ⟨S62x1x16384, .f32⟩
  | .hbm, ⟨13, _⟩ => ⟨S1015808, .f32⟩
  | .hbm, ⟨14, _⟩ => ⟨S1000000, .f32⟩
  | .hbm, ⟨15, _⟩ => ⟨S_, .f32⟩
  | .hbm, ⟨16, _⟩ => ⟨S4096, .f32⟩
  | .hbm, ⟨17, _⟩ => ⟨S1000000x1, .i32⟩
  | .hbm, ⟨18, _⟩ => ⟨S4096, .f32⟩
  | .local _ .vmem, ⟨0, _⟩ => ⟨S16384x128, .f32⟩
  | .local _ .vmem, ⟨1, _⟩ => ⟨S16384x128, .f32⟩
  | .local _ .vmem, ⟨2, _⟩ => ⟨S128x64, .f32⟩
  | .local _ .vmem, ⟨3, _⟩ => ⟨S1x64, .f32⟩
  | .local _ .vmem, ⟨4, _⟩ => ⟨S1x64, .f32⟩
  | .local _ .vmem, ⟨5, _⟩ => ⟨S1x1, .f32⟩
  | .local _ .vmem, ⟨6, _⟩ => ⟨S1x1x16384, .f32⟩
  | .local _ .vmem, ⟨7, _⟩ => ⟨S1x1x16384, .f32⟩
  | _, _ => ⟨S1000000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![62], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x16384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  pads_S1000000x128_S1015808x128_0158080_000 : S1000000x128.Pads (![0, 0] : Fin 2 → Nat) ![15808, 0] ![0, 0] S1015808x128
  h_S_ : 0 < S_.numel
  transposes_S64x128_S128x64_1_0 : S64x128.Transposes [1, 0] S128x64
  shapeCasts_S64_S1x64 : S64.ShapeCasts S1x64
  shapeCasts_S1_S1x1 : S1.ShapeCasts S1x1
  inb_S16384x128_S16384x128_0_0 : ∀ a, (![0, 0] : Fin 2 → Nat) a + S16384x128.size a ≤ S16384x128.size a
  h_S16384x128 : 0 < S16384x128.numel
  shapeCasts_S16384x128_S16384x128 : S16384x128.ShapeCasts S16384x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S16384x64 : S1x64.Broadcasts S16384x64
  inb_S1x1_S1x1_0_0 : ∀ a, (![0, 0] : Fin 2 → Nat) a + S1x1.size a ≤ S1x1.size a
  h_S1x1 : 0 < S1x1.numel
  shapeCasts_S1x1_S1x1 : S1x1.ShapeCasts S1x1
  reduces_S16384x64_S16384 : S16384x64.Reduces [1] S16384
  inpos_S1x1_p0_0 : ∀ a, (![0, 0] : Fin 2 → Nat) a < S1x1.size a
  shapeCasts_S16384_S1x1x16384 : S16384.ShapeCasts S1x1x16384
  inb_S1x1x16384_S1x1x16384_0_0_0 : ∀ a, (![0, 0, 0] : Fin 3 → Nat) a + S1x1x16384.size a ≤ S1x1x16384.size a
  h_S1x1x16384 : 0 < S1x1x16384.numel
  shapeCasts_S62x1x16384_S1015808 : S62x1x16384.ShapeCasts S1015808
  slices_S1015808_S1000000_0 : S1015808.Slices ![0] S1000000
  bcast_S_S4096 : S_.BroadcastsInDim S4096 (![] : Fin 0 → Fin S4096.rank)
  bcast_S1000000_S1000000x1_0 : S1000000.BroadcastsInDim S1000000x1 (![0] : Fin 1 → Fin S1000000x1.rank)
  dot_S16384x128_S128x64_S16384x64_1_0_0_1_n_n_wf : DotDims.WF S16384x128 S128x64 S16384x64 [1] [0] [0] [1] [] []
  scatter_S4096_S1000000x1_S1000000_n_0_0_1_wf : ScatterDims.WF S4096 S1000000x1 S1000000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x128.size a ≤ S1015808x128.size a
  hwx0_0 : ∀ i : grid0.Coords, EltTy.bits .f32 = 32 ∨ (Rect.block (s := S1015808x128) S16384x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x16384.size a ≤ S62x1x16384.size a
  hwx0_5 : ∀ i : grid0.Coords, EltTy.bits .f32 = 32 ∨ (Rect.block (s := S62x1x16384) S1x1x16384.size (cc0_transform_5 i) (hinb0_5 i)).WholeWords (EltTy.packing .f32)

variable [Facts₀]

def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf
def scatter_S4096_S1000000x1_S1000000_n_0_0_1 : ScatterDims S4096 S1000000x1 S1000000 where
  updateWindowDims := []
  insertedWindowDims := [0]
  scatterDimsToOperandDims := [0]
  indexVectorDim := 1
  wf := scatter_S4096_S1000000x1_S1000000_n_0_0_1_wf

abbrev win0_0 : Pipeline.Window sig grid0 :=
  Pipeline.Window.ofSpec (Memref.whole main_v0) S16384x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x1x16384.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1000000x128 : Shape := ⟨2, ![1000000, 128]⟩
abbrev S1000000 : Shape := ⟨1, ![1000000]⟩
abbrev S64x128 : Shape := ⟨2, ![64, 128]⟩
abbrev S64 : Shape := ⟨1, ![64]⟩
abbrev S1x64 : Shape := ⟨2, ![1, 64]⟩
abbrev S1 : Shape := ⟨1, ![1]⟩
abbrev S1000000x64 : Shape := ⟨2, ![1000000, 64]⟩
abbrev S_ : Shape := ⟨0, ![]⟩
abbrev S1000000x1 : Shape := ⟨2, ![1000000, 1]⟩
abbrev S1x1 : Shape := ⟨2, ![1, 1]⟩
abbrev S4096 : Shape := ⟨1, ![4096]⟩

abbrev nBuf : Space → Nat
  | .hbm => 28
  | .vmem => 0
  | .smem => 0
  | _ => 0

abbrev bufTy : (tb : Table) → Fin (tcTables nBuf tb) → BufTy
  | .hbm, ⟨0, _⟩ => ⟨S1000000x128, .f32⟩
  | .hbm, ⟨1, _⟩ => ⟨S1000000, .i32⟩
  | .hbm, ⟨2, _⟩ => ⟨S64x128, .f32⟩
  | .hbm, ⟨3, _⟩ => ⟨S64, .f32⟩
  | .hbm, ⟨4, _⟩ => ⟨S1x64, .f32⟩
  | .hbm, ⟨5, _⟩ => ⟨S1, .f32⟩
  | .hbm, ⟨6, _⟩ => ⟨S1000000x64, .f32⟩
  | .hbm, ⟨7, _⟩ => ⟨S1x64, .f32⟩
  | .hbm, ⟨8, _⟩ => ⟨S1000000x64, .f32⟩
  | .hbm, ⟨9, _⟩ => ⟨S1000000x64, .f32⟩
  | .hbm, ⟨10, _⟩ => ⟨S1000000x64, .f32⟩
  | .hbm, ⟨11, _⟩ => ⟨S1000000x64, .f32⟩
  | .hbm, ⟨12, _⟩ => ⟨S_, .f32⟩
  | .hbm, ⟨13, _⟩ => ⟨S1000000x64, .f32⟩
  | .hbm, ⟨14, _⟩ => ⟨S1000000x64, .f32⟩
  | .hbm, ⟨15, _⟩ => ⟨S_, .f32⟩
  | .hbm, ⟨16, _⟩ => ⟨S1000000x64, .f32⟩
  | .hbm, ⟨17, _⟩ => ⟨S1000000x64, .f32⟩
  | .hbm, ⟨18, _⟩ => ⟨S1000000x64, .f32⟩
  | .hbm, ⟨19, _⟩ => ⟨S1000000x1, .f32⟩
  | .hbm, ⟨20, _⟩ => ⟨S1x1, .f32⟩
  | .hbm, ⟨21, _⟩ => ⟨S1000000x1, .f32⟩
  | .hbm, ⟨22, _⟩ => ⟨S1000000x1, .f32⟩
  | .hbm, ⟨23, _⟩ => ⟨S1000000, .f32⟩
  | .hbm, ⟨24, _⟩ => ⟨S_, .f32⟩
  | .hbm, ⟨25, _⟩ => ⟨S4096, .f32⟩
  | .hbm, ⟨26, _⟩ => ⟨S1000000x1, .i32⟩
  | .hbm, ⟨27, _⟩ => ⟨S4096, .f32⟩
  | _, _ => ⟨S1000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S_S1000000x64 : S_.BroadcastsInDim S1000000x64 (![] : Fin 0 → Fin S1000000x64.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  shapeCasts_S1000000x1_S1000000 : S1000000x1.ShapeCasts S1000000
  bcast_S_S4096 : S_.BroadcastsInDim S4096 (![] : Fin 0 → Fin S4096.rank)
  bcast_S1000000_S1000000x1_0 : S1000000.BroadcastsInDim S1000000x1 (![0] : Fin 1 → Fin S1000000x1.rank)
  dot_S1000000x128_S64x128_S1000000x64_1_1_0_0_n_n_wf : DotDims.WF S1000000x128 S64x128 S1000000x64 [1] [1] [0] [0] [] []
  dot_S1000000x64_S1x64_S1000000x1_1_1_0_0_n_n_wf : DotDims.WF S1000000x64 S1x64 S1000000x1 [1] [1] [0] [0] [] []
  scatter_S4096_S1000000x1_S1000000_n_0_0_1_wf : ScatterDims.WF S4096 S1000000x1 S1000000 [] [0] [0] 1

variable [Facts₀]

def dot_S1000000x128_S64x128_S1000000x64_1_1_0_0_n_n : DotDims S1000000x128 S64x128 S1000000x64 where
  lhsContracting := [1]
  rhsContracting := [1]
  lhsNonContracting := [0]
  rhsNonContracting := [0]
  lhsBatch := []
  rhsBatch := []
  wf := dot_S1000000x128_S64x128_S1000000x64_1_1_0_0_n_n_wf
def dot_S1000000x64_S1x64_S1000000x1_1_1_0_0_n_n : DotDims S1000000x64 S1x64 S1000000x1 where
  lhsContracting := [1]
  rhsContracting := [1]
  lhsNonContracting := [0]
  rhsNonContracting := [0]
  lhsBatch := []
  rhsBatch := []
  wf := dot_S1000000x64_S1x64_S1000000x1_1_1_0_0_n_n_wf
def scatter_S4096_S1000000x1_S1000000_n_0_0_1 : ScatterDims S4096 S1000000x1 S1000000 where
  updateWindowDims := []
  insertedWindowDims := [0]
  scatterDimsToOperandDims := [0]
  indexVectorDim := 1
  wf := scatter_S4096_S1000000x1_S1000000_n_0_0_1_wf

class Facts : Prop extends Facts₀ where

variable [Facts]
-- ==== Proof.NodeScore.lean ====
/-
  The per-node score both programs compute, as one function on the extended reals.

  A node's feature row `xr : Fin 128 → EReal` goes through a two-layer perceptron with 64 hidden units:

      z_h   = (∑ k, xr k · W h k) + b h                      the hidden pre-activation
      silu z = z · 1 / (1 + e^(−z))                           the activation, division and exponential those of the extended reals
      score = (∑ h, silu z_h · v h) + s                       the output unit

  `scores` reads this row by row off the argument arrays: row `n` of the feature matrix, the weight matrix `w1` indexed
  (hidden unit, feature), the bias vector `b1`, the single output row of `w2` and the single output bias `b2`.
  Nothing here needs the inputs finite: the sums are sums in the commutative monoid of the extended reals, taken in the same
  order on both sides.
-/
import Idealize.ShloMosaic.PureOps.Ideal
import Idealize.ShloMosaic.Lib.ValueIdx

noncomputable section

namespace Cert.NodeScore

open Idealize.ShloMosaic Idealize.ShloMosaic.ValueIdx

/-- `z · 1 / (1 + e^(−z))` on the extended reals. -/
def silu (z : EReal) : EReal := z * Ideal.div 1 (1 + Ideal.exp (-z))

/-- One node's score from its feature row, the hidden layer's weights and biases, the output unit's weights and bias. -/
def rowScore (xr : Fin 128 → EReal) (W : Fin 64 → Fin 128 → EReal) (b : Fin 64 → EReal) (v : Fin 64 → EReal) (s : EReal) : EReal :=
  (∑ h : Fin 64, silu ((∑ k : Fin 128, xr k * W h k) + b h) * v h) + s

/-- `rowScore` of data that agree entry by entry. -/
theorem rowScore_congr {xr xr' : Fin 128 → EReal} {W W' : Fin 64 → Fin 128 → EReal} {b b' v v' : Fin 64 → EReal} {s s' : EReal}
    (h0 : ∀ k, xr k = xr' k) (h1 : ∀ h k, W h k = W' h k) (h2 : ∀ h, b h = b' h) (h3 : ∀ h, v h = v' h) (h4 : s = s') :
    rowScore xr W b v s = rowScore xr' W' b' v' s' := by
  obtain rfl : xr = xr' := funext h0
  obtain rfl : W = W' := funext fun h => funext (h1 h)
  obtain rfl : b = b' := funext h2
  obtain rfl : v = v' := funext h3
  rw [h4]

/-- The score of node `n`, read off the argument arrays. -/
def scoreAt (x : (⟨2, ![1000000, 128]⟩ : Shape).Idx → EReal) (w1 : (⟨2, ![64, 128]⟩ : Shape).Idx → EReal)
    (b1 : (⟨1, ![64]⟩ : Shape).Idx → EReal) (w2 : (⟨2, ![1, 64]⟩ : Shape).Idx → EReal) (b2 : (⟨1, ![1]⟩ : Shape).Idx → EReal)
    (n : Fin 1000000) : EReal :=
  rowScore (fun k => x (ix2 n k)) (fun h k => w1 (ix2 h k)) (fun h => b1 (ix1 h)) (fun h => w2 (ix2 (0 : Fin 1) h)) (b2 (ix1 (0 : Fin 1)))

/-- Every node's score, as a vector over the million nodes. -/
def scores (x : (⟨2, ![1000000, 128]⟩ : Shape).Idx → EReal) (w1 : (⟨2, ![64, 128]⟩ : Shape).Idx → EReal)
    (b1 : (⟨1, ![64]⟩ : Shape).Idx → EReal) (w2 : (⟨2, ![1, 64]⟩ : Shape).Idx → EReal) (b2 : (⟨1, ![1]⟩ : Shape).Idx → EReal) :
    (⟨1, ![1000000]⟩ : Shape).Idx → EReal :=
  fun i => scoreAt x w1 b1 w2 b2 ⟨(i 0).val, (i 0).isLt⟩

theorem scores_ix1 (x : (⟨2, ![1000000, 128]⟩ : Shape).Idx → EReal) (w1 : (⟨2, ![64, 128]⟩ : Shape).Idx → EReal)
    (b1 : (⟨1, ![64]⟩ : Shape).Idx → EReal) (w2 : (⟨2, ![1, 64]⟩ : Shape).Idx → EReal) (b2 : (⟨1, ![1]⟩ : Shape).Idx → EReal)
    (n : Fin 1000000) : scores x w1 b1 w2 b2 (ix1 n) = scoreAt x w1 b1 w2 b2 n := rfl

end Cert.NodeScore

end
-- ==== Proof.LibPlainDot.lean ====
/-
  A matrix product into a zero accumulator, read at coordinates.

  For a dot of a `[M, K]` matrix with a `[K, N]` matrix whose dimension numbers contract the left operand's second axis with
  the right operand's first and keep the other two in order, the product accumulated into the zero splat is, at `(p, c)`,

      ∑ k : Fin K, l (p, k) · r (k, c)

  on the extended reals. The dimension record enters only through four facts about its operand indices — the left index at
  output index `i` and contraction position `q` is `(i 0, q)`, the right one `(q, i 1)` — which a concrete record proves by
  unfolding; with them the sum over the record's one-axis contraction shape is re-indexed over `Fin K`.
-/
import Idealize.ShloMosaic.PureOps.Ideal.Laws
import Idealize.ShloMosaic.Lib.ValueIdx

namespace Cert.Lib.PlainDot

open Idealize.ShloMosaic Idealize.ShloMosaic.ValueIdx

/-- The product of an `[M, K]` and a `[K, N]` matrix into the zero splat at `(p, c)`: the sum over `k` of `l (p, k) · r (k, c)`. -/
theorem matmul_zero_ix2 {M K N : ℕ} {φ₁ φ₂ : FTy}
    (D : DotDims ⟨2, ![M, K]⟩ ⟨2, ![K, N]⟩ ⟨2, ![M, N]⟩) (hr : D.contr.rank = 1) (hs : D.contr.size ⟨0, by omega⟩ = K)
    (hl0 : ∀ (i : (⟨2, ![M, N]⟩ : Shape).Idx) (q : D.contr.Idx), (D.lhsIdx i q (0 : Fin 2)).val = (i (0 : Fin 2)).val)
    (hl1 : ∀ (i : (⟨2, ![M, N]⟩ : Shape).Idx) (q : D.contr.Idx), (D.lhsIdx i q (1 : Fin 2)).val = (q ⟨0, by omega⟩).val)
    (hr0 : ∀ (i : (⟨2, ![M, N]⟩ : Shape).Idx) (q : D.contr.Idx), (D.rhsIdx i q (0 : Fin 2)).val = (q ⟨0, by omega⟩).val)
    (hr1 : ∀ (i : (⟨2, ![M, N]⟩ : Shape).Idx) (q : D.contr.Idx), (D.rhsIdx i q (1 : Fin 2)).val = (i (1 : Fin 2)).val)
    (prec : Option ContractPrecision) (l : FVec Ideal ⟨2, ![M, K]⟩ φ₁) (r : FVec Ideal ⟨2, ![K, N]⟩ φ₂) (p : Fin M) (c : Fin N) :
    FloatOps.matmul D prec l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.Lib.PlainDot
-- ==== Proof.BodyScore.lean ====
/-
  What the kernel body stores for row `r` of its block is `rowScore` of that row.

  The body takes a block `x0` of 16384 feature rows, the transposed weight matrix `x1` (feature, hidden unit), the hidden bias
  row `x2`, the output weight row `x3` and the output bias `x4`. Entry `(0, 0, r)` of what it stores is entry `r` of a vector:
  the sum over the 64 lanes of row `r` of the activated hidden values times the output weights, plus the output bias. The
  hidden value at `(r, h)` is the matrix product into the zero accumulator — on the extended reals the plain sum over the 128
  features of `x0 (r, k) · x1 (k, h)`, the change of format to bf16 being the identity — plus the bias row broadcast down the
  rows. The activation is the hidden value times the logistic function, which on the extended reals is `1 / (1 + e^(−z))`
  by definition.
-/
import proofs.«137163_j44057774522748_1_alg».proof.Proof.Gen.KernelIdeal.Skeleton
import proofs.«137163_j44057774522748_1_alg».proof.Proof.NodeScore
import proofs.«137163_j44057774522748_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.BodyScore

open Cert.KernelIdeal Cert.KernelIdeal.Gen Idealize.ShloMosaic Idealize.ShloMosaic.ValueIdx Cert.NodeScore

/-- The contraction record of the body's matrix product, named. -/
abbrev DD : DotDims S16384x128 S128x64 S16384x64 := dot_S16384x128_S128x64_S16384x64_1_0_0_1_n_n

theorem dd_l0 (i : S16384x64.Idx) (q : DD.contr.Idx) : (DD.lhsIdx i q (0 : Fin 2)).val = (i (0 : Fin 2)).val := by
  unfold DotDims.lhsIdx
  rw [dif_neg (show ¬(0 : Fin S16384x128.rank) ∈ DD.lhsBatch by decide), dif_pos (show (0 : Fin S16384x128.rank) ∈ DD.lhsNonContracting by decide)]
  rfl
theorem dd_l1 (i : S16384x64.Idx) (q : DD.contr.Idx) : (DD.lhsIdx i q (1 : Fin 2)).val = (q ⟨0, by decide⟩).val :=
  DD.lhsIdx_val_of_single rfl i q
theorem dd_r0 (i : S16384x64.Idx) (q : DD.contr.Idx) : (DD.rhsIdx i q (0 : Fin 2)).val = (q ⟨0, by decide⟩).val :=
  DD.rhsIdx_val_of_single rfl i q
theorem dd_r1 (i : S16384x64.Idx) (q : DD.contr.Idx) : (DD.rhsIdx i q (1 : Fin 2)).val = (i (1 : Fin 2)).val := by
  unfold DotDims.rhsIdx
  rw [dif_neg (show ¬(1 : Fin S128x64.rank) ∈ DD.rhsBatch by decide), dif_pos (show (1 : Fin S128x64.rank) ∈ DD.rhsNonContracting by decide)]
  rfl

/-- The block's hidden pre-activations: the product into the zero accumulator plus the bias row broadcast down the rows. -/
def hid (x0 : FVec Ideal S16384x128 .f32) (x1 : FVec Ideal S128x64 .f32) (x2 : FVec Ideal S1x64 .f32) : FVec Ideal S16384x64 .f32 :=
  addf (matmul DD none (truncf .bf16 x0 bitsLt_bf16_f32) (truncf .bf16 x1 bitsLt_bf16_f32) (constant (F := Ideal) S16384x64 .f32 0x00000000#32))
    (broadcastTo S16384x64 x2 broadcasts_S1x64_S16384x64)

/-- The activated hidden values times the output weights, lane by lane: what the lane sum adds up. -/
def weighted (x0 : FVec Ideal S16384x128 .f32) (x1 : FVec Ideal S128x64 .f32) (x2 x3 : FVec Ideal S1x64 .f32) : FVec Ideal S16384x64 .f32 :=
  mulf (mulf (hid x0 x1 x2) (logistic (hid x0 x1 x2))) (broadcastTo S16384x64 x3 broadcasts_S1x64_S16384x64)

/-- The hidden pre-activation at `(r, h)`: the product's sum over the features plus the bias of unit `h`. -/
theorem hidden_apply (x0 : FVec Ideal S16384x128 .f32) (x1 : FVec Ideal S128x64 .f32) (x2 : FVec Ideal S1x64 .f32) (r : Fin 16384) (h : Fin 64) :
    hid x0 x1 x2 (ix2 r h) = (∑ k : Fin 128, x0 (ix2 r k) * x1 (ix2 k h)) + x2 (ix2 (0 : Fin 1) h) := by
  show FloatOps.matmul DD none (truncf .bf16 x0 bitsLt_bf16_f32) (truncf .bf16 x1 bitsLt_bf16_f32) (constant (F := Ideal) S16384x64 .f32 0x00000000#32) (ix2 r h)
      + broadcastTo S16384x64 x2 broadcasts_S1x64_S16384x64 (ix2 r h) = _
  refine congrArg₂ (· + ·) ?_ ?_
  · exact Cert.Lib.PlainDot.matmul_zero_ix2 DD rfl rfl dd_l0 dd_l1 dd_r0 dd_r1 none (truncf .bf16 x0 bitsLt_bf16_f32) (truncf .bf16 x1 bitsLt_bf16_f32) r h
  · exact broadcastTo_1b_ab_apply x2 broadcasts_S1x64_S16384x64 r h

/-- The weighted activation at `(r, h)`: `silu` of the hidden value times the output weight of unit `h`. -/
theorem weighted_apply (x0 : FVec Ideal S16384x128 .f32) (x1 : FVec Ideal S128x64 .f32) (x2 x3 : FVec Ideal S1x64 .f32) (r : Fin 16384) (h : Fin 64) :
    weighted x0 x1 x2 x3 (ix2 r h)
      = silu ((∑ k : Fin 128, x0 (ix2 r k) * x1 (ix2 k h)) + x2 (ix2 (0 : Fin 1) h)) * x3 (ix2 (0 : Fin 1) h) := by
  show (hid x0 x1 x2 (ix2 r h) * Ideal.logistic (hid x0 x1 x2 (ix2 r h))) * broadcastTo S16384x64 x3 broadcasts_S1x64_S16384x64 (ix2 r h) = _
  rw [hidden_apply, broadcastTo_1b_ab_apply x3 broadcasts_S1x64_S16384x64 r h]
  rfl

/-- The sum over the 64 lanes of row `r`. -/
theorem lane_sum (v : FVec Ideal S16384x64 .f32) (hφ : FKind.Formats .f32) (hacc : (0x00000000#32 : BitVec 32) = FKind.add.neutral .f32 hφ) (r : Fin 16384) :
    multiReduction .add [1] S16384 v 0x00000000#32 reduces_S16384x64_S16384 hφ hacc (ix1 r) = ∑ h : Fin 64, v (ix2 r h) := by
  refine (Ideal.multiReduction_add_single v 0x00000000#32 reduces_S16384x64_S16384 hφ hacc (ix1 r)).trans ?_
  refine Finset.sum_congr rfl fun h _ => congrArg v (funext fun a => Fin.ext ?_)
  match a with
  | ⟨0, _⟩ => rfl
  | ⟨1, _⟩ => rfl

/-- The body's stored value, with its identity casts dropped: the lane sums of `weighted` plus the output bias, as a `[1, 1, 16384]` block. -/
theorem pay_eq (x0 : Vec Ideal S16384x128 .f32) (x1 : Vec Ideal S128x64 .f32) (x2 x3 : Vec Ideal S1x64 .f32) (x4 : Vec Ideal S1x1 .f32) :
    k0_pay1 x0 x1 x2 x3 x4
      = shapeCast S1x1x16384 (addf (multiReduction .add [1] S16384 (weighted x0 x1 x2 x3) 0x00000000#32 reduces_S16384x64_S16384 (.inl rfl) rfl)
          (broadcast S16384 (extractAt ![0, 0] x4 inpos_S1x1_p0_0))) shapeCasts_S16384_S1x1x16384 := by
  unfold k0_pay1 weighted hid
  simp only [shapeCast_self]

/-- Entry `(0, 0, r)` of what the body stores is the score of row `r` of its block. -/
theorem pay_apply (x0 : Vec Ideal S16384x128 .f32) (x1 : Vec Ideal S128x64 .f32) (x2 x3 : Vec Ideal S1x64 .f32) (x4 : Vec Ideal S1x1 .f32) (r : Fin 16384) :
    k0_pay1 x0 x1 x2 x3 x4 (ix3 (0 : Fin 1) (0 : Fin 1) r)
      = rowScore (fun k => x0 (ix2 r k)) (fun h k => x1 (ix2 k h)) (fun h => x2 (ix2 (0 : Fin 1) h)) (fun h => x3 (ix2 (0 : Fin 1) h))
          (x4 (ix2 (0 : Fin 1) (0 : Fin 1))) := by
  rw [pay_eq]
  refine (shapeCast_apply _ shapeCasts_S16384_S1x1x16384 (ix3 (0 : Fin 1) (0 : Fin 1) r) (ix1 r) ?_).trans ?_
  · rw [Shape.rowMajor_val_one, Shape.rowMajor_val_three]
    show r.val = ((0 : ℕ) * 1 + 0) * 16384 + r.val
    omega
  show multiReduction .add [1] S16384 (weighted x0 x1 x2 x3) 0x00000000#32 reduces_S16384x64_S16384 (.inl rfl) rfl (ix1 r)
      + extractAt ![0, 0] x4 inpos_S1x1_p0_0 = _
  unfold rowScore
  refine congrArg₂ (· + ·) ?_ ?_
  · refine (lane_sum (weighted x0 x1 x2 x3) (.inl rfl) rfl r).trans ?_
    exact Finset.sum_congr rfl fun h _ => weighted_apply x0 x1 x2 x3 r h
  · unfold extractAt
    refine congrArg x4 (funext fun a => Fin.ext ?_)
    match a with
    | ⟨0, _⟩ => rfl
    | ⟨1, _⟩ => rfl

end Cert.KernelIdeal.BodyScore

end
-- ==== Proof.RegionScore.lean ====
/-
  The region's output array, after all 62 grid points, as one function of its five input arrays.

  Point `t` is given rows `16384·t … 16384·t + 16383` of the padded feature matrix and the whole of the four small arrays, and
  writes back block `t` of the `[62, 1, 16384]` output. So entry `(t, 0, j)` of the output is the score of padded row
  `16384·t + j`. The 62 blocks tile the output: index `(t, 0, j)` lies in point `t`'s block.
-/
import proofs.«137163_j44057774522748_1_alg».proof.Proof.Gen.KernelIdeal.Frame
import proofs.«137163_j44057774522748_1_alg».proof.Proof.BodyScore
import Idealize.ShloMosaic.Lib.Pipeline.Value

noncomputable section

namespace Cert.KernelIdeal.RegionScore

open Cert.KernelIdeal Cert.KernelIdeal.Gen Idealize.ShloMosaic Idealize.ShloMosaic.TcCoe Idealize.SL.Sem
open Idealize.ShloMosaic.ValueIdx Cert.NodeScore
open Idealize.ShloMosaic.Pipeline (Dat)

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- The output array as a function of the five input arrays: entry `(t, 0, j)` is the score of padded row `16384·t + j`. -/
def regionOut (xp : S1015808x128.Idx → EReal) (wt : S128x64.Idx → EReal) (b1r : S1x64.Idx → EReal) (w2 : S1x64.Idx → EReal)
    (b2r : S1x1.Idx → EReal) : S62x1x16384.Idx → EReal :=
  fun i => rowScore
    (fun k => xp (ix2 (⟨(i 0).val * 16384 + (i 2).val, by
      have h0 : (i 0).val < 62 := (i 0).isLt
      have h2 : (i 2).val < 16384 := (i 2).isLt
      omega⟩ : Fin 1015808) k))
    (fun h k => wt (ix2 k h)) (fun h => b1r (ix2 (0 : Fin 1) h)) (fun h => w2 (ix2 (0 : Fin 1) h)) (b2r (ix2 (0 : Fin 1) (0 : Fin 1)))

/-- The same with the padded row named. -/
theorem regionOut_apply (xp : S1015808x128.Idx → EReal) (wt : S128x64.Idx → EReal) (b1r : S1x64.Idx → EReal) (w2 : S1x64.Idx → EReal)
    (b2r : S1x1.Idx → EReal) (i : S62x1x16384.Idx) (n : Fin 1015808) (hn : n.val = (i 0).val * 16384 + (i 2).val) :
    regionOut xp wt b1r w2 b2r i
      = rowScore (fun k => xp (ix2 n k)) (fun h k => wt (ix2 k h)) (fun h => b1r (ix2 (0 : Fin 1) h)) (fun h => w2 (ix2 (0 : Fin 1) h))
          (b2r (ix2 (0 : Fin 1) (0 : Fin 1))) := by
  obtain ⟨v, hv⟩ := n
  dsimp only at hn
  subst hn
  rfl

/-- The printed index maps, decided over the 62 points: the feature window and the output window are at block `t`, the four
    small windows at their one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

/-- Row `r` of the feature block at point `t` is padded row `16384·t + r`. -/
theorem blk0_apply (c : Dev nD) (t : Fin cfg0.N) (r : Fin 16384) (k : Fin 128) (n : Fin 1015808) (hn : n.val = t.val * 16384 + r.val) :
    (iblk m c 0 t : Vec Ideal S16384x128 .f32) (ix2 r k) = (V m c main_v0 : S1015808x128.Idx → EReal) (ix2 n k) := by
  obtain ⟨e0, e1, -⟩ := idx_facts t
  unfold iblk
  rw [View.read_apply]
  show V m c main_v0 _ = V m c main_v0 _
  refine congrArg (V m c main_v0) (funext fun a => Fin.ext ?_)
  match a with
  | ⟨0, _⟩ => show win0_0.index t (0 : Fin 2) * 16384 + 1 * r.val = n.val; rw [e0, hn]; omega
  | ⟨1, _⟩ => show win0_0.index t (1 : Fin 2) * 128 + 1 * k.val = k.val; rw [e1]; omega

/-- The transposed-weights block at any point is the whole array. -/
theorem blk1_apply (c : Dev nD) (t : Fin cfg0.N) (y : S128x64.Idx) :
    (iblk m c 1 t : Vec Ideal S128x64 .f32) y = (V m c main_v1 : S128x64.Idx → EReal) y := by
  obtain ⟨-, -, e0, e1, -⟩ := idx_facts t
  unfold iblk
  rw [View.read_apply]
  show V m c main_v1 _ = V m c main_v1 _
  refine congrArg (V m c main_v1) (funext fun a => Fin.ext ?_)
  match a with
  | ⟨0, _⟩ => show win0_1.index t (0 : Fin 2) * 128 + 1 * (y 0).val = (y 0).val; rw [e0]; omega
  | ⟨1, _⟩ => show win0_1.index t (1 : Fin 2) * 64 + 1 * (y 1).val = (y 1).val; rw [e1]; omega

/-- The hidden-bias block at any point is the whole row. -/
theorem blk2_apply (c : Dev nD) (t : Fin cfg0.N) (y : S1x64.Idx) :
    (iblk m c 2 t : Vec Ideal S1x64 .f32) y = (V m c main_v2 : S1x64.Idx → EReal) y := by
  obtain ⟨-, -, -, -, e0, e1, -⟩ := idx_facts t
  unfold iblk
  rw [View.read_apply]
  show V m c main_v2 _ = V m c main_v2 _
  refine congrArg (V m c main_v2) (funext fun a => Fin.ext ?_)
  match a with
  | ⟨0, _⟩ => show win0_2.index t (0 : Fin 2) * 1 + 1 * (y 0).val = (y 0).val; rw [e0]; omega
  | ⟨1, _⟩ => show win0_2.index t (1 : Fin 2) * 64 + 1 * (y 1).val = (y 1).val; rw [e1]; omega

/-- The output-weight block at any point is the whole row. -/
theorem blk3_apply (c : Dev nD) (t : Fin cfg0.N) (y : S1x64.Idx) :
    (iblk m c 3 t : Vec Ideal S1x64 .f32) y = (V m c main_arg4 : S1x64.Idx → EReal) y := by
  obtain ⟨-, -, -, -, -, -, e0, e1, -⟩ := idx_facts t
  unfold iblk
  rw [View.read_apply]
  show V m c main_arg4 _ = V m c main_arg4 _
  refine congrArg (V m c main_arg4) (funext fun a => Fin.ext ?_)
  match a with
  | ⟨0, _⟩ => show win0_3.index t (0 : Fin 2) * 1 + 1 * (y 0).val = (y 0).val; rw [e0]; omega
  | ⟨1, _⟩ => show win0_3.index t (1 : Fin 2) * 64 + 1 * (y 1).val = (y 1).val; rw [e1]; omega

/-- The output-bias block at any point is the whole one-by-one matrix. -/
theorem blk4_apply (c : Dev nD) (t : Fin cfg0.N) (y : S1x1.Idx) :
    (iblk m c 4 t : Vec Ideal S1x1 .f32) y = (V m c main_v3 : S1x1.Idx → EReal) y := by
  obtain ⟨-, -, -, -, -, -, -, -, e0, e1, -⟩ := idx_facts t
  unfold iblk
  rw [View.read_apply]
  show V m c main_v3 _ = V m c main_v3 _
  refine congrArg (V m c main_v3) (funext fun a => Fin.ext ?_)
  match a with
  | ⟨0, _⟩ => show win0_4.index t (0 : Fin 2) * 1 + 1 * (y 0).val = (y 0).val; rw [e0]; omega
  | ⟨1, _⟩ => show win0_4.index t (1 : Fin 2) * 1 + 1 * (y 1).val = (y 1).val; rw [e1]; omega

/-- What point `t` writes back is block `t` of `regionOut` of the arrays as the region finds them. -/
theorem flushed_eq (c : Dev nD) (t : Fin cfg0.N) :
    (dats m 0 c).flushed 5 t
      = ((cfg0.win 5).blk t).view.read (Elt Ideal) (regionOut (V m c main_v0) (V m c main_v1) (V m c main_v2) (V m c main_arg4) (V m c main_v3)) := by
  show (cfg0.win 5).cut (grid0.coords t) ((dats m 0 c).after 5 t) = _
  rw [after0_5]
  unfold out0_5
  rw [View.canon_unit_zero hz3]
  simp only [View.ld_unit_zero (S := S16384x128) hz2, View.ld_unit_zero (S := S128x64) hz2, View.ld_unit_zero (S := S1x64) hz2,
    View.ld_unit_zero (S := S1x1) hz2]
  obtain ⟨-, -, -, -, -, -, -, -, -, -, e0, e1, e2⟩ := idx_facts t
  have hN : cfg0.N = 62 := N_0
  refine funext fun (j : S1x1x16384.Idx) => ?_
  obtain ⟨r, rfl⟩ : ∃ r : Fin 16384, j = ix3 (0 : Fin 1) (0 : Fin 1) r := ⟨j 2, funext fun a => by
    match a with
    | ⟨0, _⟩ => exact Fin.ext (Nat.lt_one_iff.mp (j 0).isLt)
    | ⟨1, _⟩ => exact Fin.ext (Nat.lt_one_iff.mp (j 1).isLt)
    | ⟨2, _⟩ => rfl⟩
  show k0_pay1 (iblk m c 0 t) (iblk m c 1 t) (iblk m c 2 t) (iblk m c 3 t) (iblk m c 4 t) (ix3 (0 : Fin 1) (0 : Fin 1) r)
      = regionOut (V m c main_v0) (V m c main_v1) (V m c main_v2) (V m c main_arg4) (V m c main_v3)
          (((cfg0.win 5).blk t).view.emb (ix3 (0 : Fin 1) (0 : Fin 1) r))
  refine (BodyScore.pay_apply (iblk m c 0 t) (iblk m c 1 t) (iblk m c 2 t) (iblk m c 3 t) (iblk m c 4 t) r).trans ?_
  have ht : t.val < 62 := hN ▸ t.isLt
  have hr : r.val < 16384 := r.isLt
  rw [regionOut_apply _ _ _ _ _ _ (⟨t.val * 16384 + r.val, by omega⟩ : Fin 1015808) (by
    show t.val * 16384 + r.val = (win0_5.index t (0 : Fin 3) * 1 + 1 * 0) * 16384 + (win0_5.index t (2 : Fin 3) * 16384 + 1 * r.val)
    rw [e0, e2]; omega)]
  exact rowScore_congr (fun k => blk0_apply m c t r k _ rfl) (fun h k => blk1_apply m c t (ix2 k h))
    (fun h => blk2_apply m c t (ix2 (0 : Fin 1) h)) (fun h => blk3_apply m c t (ix2 (0 : Fin 1) h))
    (blk4_apply m c t (ix2 (0 : Fin 1) (0 : Fin 1)))

/-- An index of the output array is in point `t`'s block iff each coordinate is in the block's range on its axis. -/
theorem mem_blk (t : Fin cfg0.N) (i : S62x1x16384.Idx) :
    i ∈ ((cfg0.win 5).blk t).view.set
      ↔ ∀ a : Fin 3, win0_5.index t a * S1x1x16384.size a ≤ (i a).val ∧ (i a).val < win0_5.index t a * S1x1x16384.size a + S1x1x16384.size a := by
  show i ∈ ((View.whole main_v4).slice (win0_5.rect t)).set ↔ _
  rw [View.set_slice_whole, Rect.mem_set_unit]
  exact Iff.rfl

/-- The output array after the region: `regionOut` of the arrays as the region finds them (index `(t, 0, j)` is in point `t`'s block). -/
theorem final (c : Dev nD) :
    (dats m 0 c).arrAt 5 cfg0.N = regionOut (V m c main_v0) (V m c main_v1) (V m c main_v2) (V m c main_arg4) (V m c main_v3) :=
  (dats m 0 c).arrAt_eq_of_cover 5 _ (fun t _ => flushed_eq m c t) fun i => by
    have hN : cfg0.N = 62 := N_0
    have h0 : (i 0).val < 62 := (i 0).isLt
    have h1 : (i 1).val < 1 := (i 1).isLt
    have h2 : (i 2).val < 16384 := (i 2).isLt
    have hlt : (i 0).val < cfg0.N := by rw [hN]; exact h0
    obtain ⟨-, -, -, -, -, -, -, -, -, -, e0, e1, e2⟩ := idx_facts ⟨(i 0).val, hlt⟩
    refine ⟨⟨(i 0).val, hlt⟩, flush0_5 _, ?_⟩
    rw [mem_blk]
    intro a
    match a with
    | ⟨0, _⟩ =>
      show win0_5.index ⟨(i 0).val, hlt⟩ (0 : Fin 3) * 1 ≤ (i 0).val ∧ (i 0).val < win0_5.index ⟨(i 0).val, hlt⟩ (0 : Fin 3) * 1 + 1
      rw [e0]; show (i 0).val * 1 ≤ (i 0).val ∧ (i 0).val < (i 0).val * 1 + 1; omega
    | ⟨1, _⟩ =>
      show win0_5.index ⟨(i 0).val, hlt⟩ (1 : Fin 3) * 1 ≤ (i 1).val ∧ (i 1).val < win0_5.index ⟨(i 0).val, hlt⟩ (1 : Fin 3) * 1 + 1
      rw [e1]; omega
    | ⟨2, _⟩ =>
      show win0_5.index ⟨(i 0).val, hlt⟩ (2 : Fin 3) * 16384 ≤ (i 2).val ∧ (i 2).val < win0_5.index ⟨(i 0).val, hlt⟩ (2 : Fin 3) * 16384 + 16384
      rw [e2]; omega

end Cert.KernelIdeal.RegionScore

end
-- ==== Proof.EntryArrays.lean ====
/-
  What the kernel's region finds in its five input arrays, in terms of the program's arguments.

  Before the region the program pads the feature matrix with 15808 extra rows at the bottom, transposes the hidden weight
  matrix, and views the two bias vectors as one-row matrices; the output weight row is passed as it is. Read at an index:
  a row below 1000000 of the padded matrix is that row of the feature matrix; entry `(k, h)` of the transposed weights is
  entry `(h, k)` of the weights; entry `(0, h)` of the bias row is entry `h` of the bias vector.
-/
import proofs.«137163_j44057774522748_1_alg».proof.Proof.Gen.KernelIdeal.Frame
import Idealize.ShloMosaic.Lib.KernelVsHost
import Idealize.ShloMosaic.Lib.ValueLayout
import Idealize.ShloMosaic.Lib.StableHlo.Run

noncomputable section

namespace Cert.KernelIdeal.EntryArrays

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The region's first array is the feature matrix padded at the bottom. -/
theorem entry_features (c : Dev nD) :
    (V m c main_v0 : S1015808x128.Idx → EReal)
      = pad S1015808x128 ![0, 0] ![15808, 0] ![0, 0] (m ((c : Thread nD τ).loc main_arg0))
          (sitofp (F := Ideal) .f32 (constantI S_ 32 0#32)) pads_S1000000x128_S1015808x128_0158080_000 h_S_ := by
  dsimp only [V, V0]
  simp only [hostOps0, hostOps0_1, hostOps0_2, List.flatten_cons, List.flatten_nil, List.append_nil, List.cons_append, List.nil_append]
  after_results <;> rfl

/-- Its second is the hidden weight matrix transposed. -/
theorem entry_weights (c : Dev nD) :
    (V m c main_v1 : S128x64.Idx → EReal) = transpose S128x64 [1, 0] (m ((c : Thread nD τ).loc main_arg2)) transposes_S64x128_S128x64_1_0 := by
  dsimp only [V, V0]
  simp only [hostOps0, hostOps0_1, hostOps0_2, List.flatten_cons, List.flatten_nil, List.append_nil, List.cons_append, List.nil_append]
  after_results <;> rfl

/-- Its third is the hidden bias vector as one row. -/
theorem entry_bias1 (c : Dev nD) :
    (V m c main_v2 : S1x64.Idx → EReal) = shapeCast S1x64 (m ((c : Thread nD τ).loc main_arg3)) shapeCasts_S64_S1x64 := by
  dsimp only [V, V0]
  simp only [hostOps0, hostOps0_1, hostOps0_2, List.flatten_cons, List.flatten_nil, List.append_nil, List.cons_append, List.nil_append]
  after_results <;> rfl

/-- Its fifth is the output bias as a one-by-one matrix. -/
theorem entry_bias2 (c : Dev nD) :
    (V m c main_v3 : S1x1.Idx → EReal) = shapeCast S1x1 (m ((c : Thread nD τ).loc main_arg5)) shapeCasts_S1_S1x1 := by
  dsimp only [V, V0]
  simp only [hostOps0, hostOps0_1, hostOps0_2, List.flatten_cons, List.flatten_nil, List.append_nil, List.cons_append, List.nil_append]
  after_results <;> rfl

/-- Row `n` of the padded matrix, for `n` below 1000000, is row `n` of the feature matrix. -/
theorem features_apply (c : Dev nD) (n' : Fin 1015808) (n : Fin 1000000) (hn : n'.val = n.val) (k : Fin 128) :
    (V m c main_v0 : S1015808x128.Idx → EReal) (ix2 n' k) = (m ((c : Thread nD τ).loc main_arg0) : S1000000x128.Idx → EReal) (ix2 n k) := by
  rw [entry_features]
  refine pad_apply_of_inside _ _ _ _ _ pads_S1000000x128_S1015808x128_0158080_000 h_S_ (ix2 n' k) (ix2 n k) fun a => ?_
  match a with
  | ⟨0, _⟩ => show n'.val = 0 + n.val * (0 + 1); omega
  | ⟨1, _⟩ => show k.val = 0 + k.val * (0 + 1); omega

/-- Entry `(k, h)` of the transposed weights is entry `(h, k)` of the weights. -/
theorem weights_apply (c : Dev nD) (k : Fin 128) (h : Fin 64) :
    (V m c main_v1 : S128x64.Idx → EReal) (ix2 k h) = (m ((c : Thread nD τ).loc main_arg2) : S64x128.Idx → EReal) (ix2 h k) := by
  rw [entry_weights]
  exact transpose_ix2_apply _ transposes_S64x128_S128x64_1_0 k h

/-- Entry `(0, h)` of the bias row is entry `h` of the hidden bias vector. -/
theorem bias1_apply (c : Dev nD) (h : Fin 64) :
    (V m c main_v2 : S1x64.Idx → EReal) (ix2 (0 : Fin 1) h) = (m ((c : Thread nD τ).loc main_arg3) : S64.Idx → EReal) (ix1 h) := by
  rw [entry_bias1]
  exact shapeCast_a_1a_apply _ shapeCasts_S64_S1x64 (0 : Fin 1) h

/-- The one entry of the output bias matrix is the one entry of the output bias vector. -/
theorem bias2_apply (c : Dev nD) :
    (V m c main_v3 : S1x1.Idx → EReal) (ix2 (0 : Fin 1) (0 : Fin 1)) = (m ((c : Thread nD τ).loc main_arg5) : S1.Idx → EReal) (ix1 (0 : Fin 1)) := by
  rw [entry_bias2]
  exact shapeCast_a_1a_apply _ shapeCasts_S1_S1x1 (0 : Fin 1) (0 : Fin 1)

end Cert.KernelIdeal.EntryArrays

end
-- ==== Proof.KernelRun.lean ====
/-
  The kernel program's run with its result named: the segment sum of `scores` of the arguments.

  After the region the program flattens the `[62, 1, 16384]` output to a vector of 1015808 entries, keeps the first 1000000,
  and adds entry `n` into bin `batch n` of 4096 zeros. Entry `n` of the kept vector is entry `(n / 16384, 0, n % 16384)` of the
  output, the score of padded row `n`; for `n` below 1000000 the padded row is row `n` of the feature matrix, so the kept vector
  is `scores` of the arguments — the padding rows are exactly the ones sliced away.
-/
import proofs.«137163_j44057774522748_1_alg».proof.Proof.RegionScore
import proofs.«137163_j44057774522748_1_alg».proof.Proof.EntryArrays
import Idealize.ShloMosaic.Lib.StableHlo.Run

noncomputable section

namespace Cert.KernelIdeal.KernelRun

open Cert.KernelIdeal Cert.KernelIdeal.Gen Idealize.ShloMosaic Idealize.ShloMosaic.TcCoe Idealize.SL.Sem
open Idealize.ShloMosaic.StableHlo Idealize.ShloMosaic.ValueIdx Cert.NodeScore Cert.KernelIdeal.RegionScore Cert.KernelIdeal.EntryArrays
open Idealize.ShloMosaic.Pipeline (Dat)

variable (m : (ℓ : Loc nD τ sig) → Buf (Elt Ideal) ℓ) (ρ : Dev nD → PrngReg)

/-- The first 1000000 entries of the flattened output are `scores` of the arguments. -/
theorem kept_scores (c : Dev nD) :
    extractStridedSlice S1000000 ![0]
        (shapeCast S1015808 (regionOut (V m c main_v0) (V m c main_v1) (V m c main_v2) (V m c main_arg4) (V m c main_v3))
          shapeCasts_S62x1x16384_S1015808) slices_S1015808_S1000000_0
      = scores (m ((c : Thread nD τ).loc main_arg0)) (m ((c : Thread nD τ).loc main_arg2)) (m ((c : Thread nD τ).loc main_arg3))
          (m ((c : Thread nD τ).loc main_arg4)) (m ((c : Thread nD τ).loc main_arg5)) := by
  funext i
  obtain ⟨n, rfl⟩ : ∃ n : Fin 1000000, i = ix1 n := ⟨i 0, eq_ix1 i⟩
  have hn : n.val < 1000000 := n.isLt
  refine (extractStridedSlice_apply ![0] _ slices_S1015808_S1000000_0 (ix1 n) (ix1 (⟨n.val, by omega⟩ : Fin 1015808)) (fun a => ?_)).trans ?_
  · match a with
    | ⟨0, _⟩ => show n.val = 0 + n.val; omega
  refine (shapeCast_apply _ shapeCasts_S62x1x16384_S1015808 (ix1 (⟨n.val, by omega⟩ : Fin 1015808))
    (ix3 (⟨n.val / 16384, by omega⟩ : Fin 62) (0 : Fin 1) (⟨n.val % 16384, by omega⟩ : Fin 16384)) ?_).trans ?_
  · rw [Shape.rowMajor_val_three, Shape.rowMajor_val_one]
    show (n.val / 16384 * 1 + 0) * 16384 + n.val % 16384 = n.val
    omega
  rw [regionOut_apply _ _ _ _ _ _ (⟨n.val, by omega⟩ : Fin 1015808) (by
    show n.val = n.val / 16384 * 16384 + n.val % 16384
    omega), scores_ix1]
  unfold scoreAt
  exact rowScore_congr (fun k => features_apply m c _ n rfl k) (fun h k => weights_apply m c k h) (fun h => bias1_apply m c h)
    (fun h => congrFun (V_main_arg4 m c) _) (bias2_apply m c)

/-- The result buffer after the lines that follow the region: the segment sum of `scores` by the batch indices. -/
theorem tail_eq (c : Dev nD) :
    Pipeline.afterTail₀ cfgs (dats m) 0 (V0 m) [hostOps1] c main_v9
      = Host.scatterAdd scatter_S4096_S1000000x1_S1000000_n_0_0_1
          (broadcastInDim S4096 ![] bcast_S_S4096 (constant (F := Ideal) S_ .f32 0x00000000#32))
          (broadcastInDim S1000000x1 ![0] bcast_S1000000_S1000000x1_0 (m ((c : Thread nD τ).loc main_arg1)))
          (scores (m ((c : Thread nD τ).loc main_arg0)) (m ((c : Thread nD τ).loc main_arg2)) (m ((c : Thread nD τ).loc main_arg3))
            (m ((c : Thread nD τ).loc main_arg4)) (m ((c : Thread nD τ).loc main_arg5))) := by
  have e4 : Pipeline.withArrays (cfgs 0).spec c (V0 m c) (fun w => (dats m 0 c).arrAt w (cfgs 0).N) (Proc.devRef .tc main_v4)
      = regionOut (V m c main_v0) (V m c main_v1) (V m c main_v2) (V m c main_arg4) (V m c main_v3) :=
    (Pipeline.withArrays_arr spec0 launch0.win.arr_inj c _ _ 5).trans (final m c)
  have e1 : Pipeline.withArrays (cfgs 0).spec c (V0 m c) (fun w => (dats m 0 c).arrAt w (cfgs 0).N) (Proc.devRef .tc main_arg1)
      = m ((c : Thread nD τ).loc main_arg1) :=
    (Pipeline.withArrays_of_ne _ c (V0 m c) _ main_arg1 (by exact (by decide : ∀ w, Pipeline.arrRef spec0 w ≠ main_arg1))).trans
      (V_main_arg1 m c)
  unfold Pipeline.afterTail₀
  show StableHlo.after hostOps1 _ (Proc.devRef .tc main_v9) = _
  after_results
  show Host.scatterAdd scatter_S4096_S1000000x1_S1000000_n_0_0_1
      (broadcastInDim S4096 ![] bcast_S_S4096 (constant (F := Ideal) S_ .f32 0x00000000#32))
      (broadcastInDim S1000000x1 ![0] bcast_S1000000_S1000000x1_0
        (Pipeline.withArrays (cfgs 0).spec c (V0 m c) (fun w => (dats m 0 c).arrAt w (cfgs 0).N) (Proc.devRef .tc main_arg1)))
      (extractStridedSlice S1000000 ![0]
        (shapeCast S1015808
          (Pipeline.withArrays (cfgs 0).spec c (V0 m c) (fun w => (dats m 0 c).arrAt w (cfgs 0).N) (Proc.devRef .tc main_v4))
          shapeCasts_S62x1x16384_S1015808) slices_S1015808_S1000000_0) = _
  rw [e4, e1, kept_scores m c]

/-- Every weakly fair execution of the kernel program terminates with its result at the segment sum of `scores` of the arguments,
    the arguments unchanged. -/
theorem run : θ_run defs (onTc (τ := τ) (main (F := Ideal))) ⟨m, fun _ => 0, ρ⟩ fun r => ∀ c : Dev nD,
      r.2.mem ((c.tc : Thread nD τ).loc main_v9)
        = Host.scatterAdd scatter_S4096_S1000000x1_S1000000_n_0_0_1
            (broadcastInDim S4096 ![] bcast_S_S4096 (constant (F := Ideal) S_ .f32 0x00000000#32))
            (broadcastInDim S1000000x1 ![0] bcast_S1000000_S1000000x1_0 (m ((c.tc : Thread nD τ).loc main_arg1)))
            (scores (m ((c.tc : Thread nD τ).loc main_arg0)) (m ((c.tc : Thread nD τ).loc main_arg2)) (m ((c.tc : Thread nD τ).loc main_arg3))
              (m ((c.tc : Thread nD τ).loc main_arg4)) (m ((c.tc : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v9 (Pipeline.mem_restRefs_of main_v9 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 3).trans (((dats m 0 c).arrAt_in 3 rfl _).trans ((A_eq m c 3).trans (V_main_arg4 m c))),
      ((h c).2 main_arg5 (Pipeline.mem_restRefs_of main_arg5 (by decide) (by decide))).trans (W_main_arg5 m (dats m) c)⟩)
    (run_main m ρ)

end Cert.KernelIdeal.KernelRun

end
-- ==== Proof.RefScore.lean ====
/-
  The reference's score vector is `scores`.

  Read one operation at a time, entry `n` of the reference's reshaped `[1000000]` vector is entry `(n, 0)` of the sum of the
  second contraction and the broadcast output bias; the second contraction at `(n, 0)` is the sum over the 64 hidden units of
  the activated hidden value at `(n, h)` times `w2 (0, h)`; the activation is the hidden value times the quotient of the
  literal one by one plus the exponential of its negation; the hidden value at `(n, h)` is the first contraction, the sum over
  the 128 features of `x (n, k) · w1 (h, k)`, plus `b1 h`. That is `rowScore` of row `n`, the literal `0x3F800000` being the
  extended real one.
-/
import proofs.«137163_j44057774522748_1_alg».proof.Proof.Gen.ReferenceIdeal.Read
import proofs.«137163_j44057774522748_1_alg».proof.Proof.NodeScore
import Idealize.ShloMosaic.Lib.IdealHost

noncomputable section

namespace Cert.ReferenceIdeal.RefScore

open Cert.ReferenceIdeal Cert.ReferenceIdeal.Read Idealize.ShloMosaic Idealize.ShloMosaic.ValueIdx Cert.NodeScore

/-- The reference's vector of per-node results, before the segment sum, is `scores` of its arguments. -/
theorem val_main_v9_eq_scores (x0 : (⟨S1000000x128, .f32⟩ : BufTy).Contents (Elt Ideal)) (x2 : (⟨S64x128, .f32⟩ : BufTy).Contents (Elt Ideal))
    (x3 : (⟨S64, .f32⟩ : BufTy).Contents (Elt Ideal)) (x4 : (⟨S1x64, .f32⟩ : BufTy).Contents (Elt Ideal)) (x5 : (⟨S1, .f32⟩ : BufTy).Contents (Elt Ideal)) :
    val_main_v9 (F := Ideal) x0 x2 x3 x4 x5 = scores x0 x2 x3 x4 x5 := by
  funext i
  obtain ⟨n, rfl⟩ : ∃ n : Fin 1000000, i = ix1 n := ⟨i 0, eq_ix1 i⟩
  have e9 : idx_main_v9 (ix1 n) = ix2 n (0 : Fin 1) := funext fun a => Fin.ext (by
    match a with
    | ⟨0, _⟩ => exact Nat.div_one _
    | ⟨1, _⟩ => rfl)
  have e5l : ∀ h : Fin 64, lidx_main_v5 (ix2 n (0 : Fin 1)) h = ix2 n h := fun h => funext fun a => Fin.ext (by
    match a with
    | ⟨0, _⟩ => rfl
    | ⟨1, _⟩ => rfl)
  have e5r : ∀ h : Fin 64, ridx_main_v5 (ix2 n (0 : Fin 1)) h = ix2 (0 : Fin 1) h := fun h => funext fun a => Fin.ext (by
    match a with
    | ⟨0, _⟩ => rfl
    | ⟨1, _⟩ => rfl)
  have e0l : ∀ (h : Fin 64) (k : Fin 128), lidx_main_v0 (ix2 n h) k = ix2 n k := fun h k => funext fun a => Fin.ext (by
    match a with
    | ⟨0, _⟩ => rfl
    | ⟨1, _⟩ => rfl)
  have e0r : ∀ (h : Fin 64) (k : Fin 128), ridx_main_v0 (ix2 n h) k = ix2 h k := fun h k => funext fun a => Fin.ext (by
    match a with
    | ⟨0, _⟩ => rfl
    | ⟨1, _⟩ => rfl)
  have e2 : ∀ h : Fin 64, idx_main_v1 (idx_main_v2 (ix2 n h)) = ix1 h := fun h => funext fun a => Fin.ext (by
    match a with
    | ⟨0, _⟩ => rfl)
  have e7 : idx_main_v6 (idx_main_v7 (ix2 n (0 : Fin 1))) = ix1 (0 : Fin 1) := funext fun a => Fin.ext (by
    match a with
    | ⟨0, _⟩ => rfl)
  rw [val_main_v9_apply, e9, val_main_v8_apply, val_main_v5_apply, val_main_v7_apply, val_main_v6_apply, e7]
  simp only [e5l, e5r, val_main_v4_apply, val_main_call0_v5_apply, val_main_call0_v4_apply, val_main_call0_cst_0_apply,
    val_main_call0_v3_apply, val_main_call0_v2_apply, val_main_call0_cst_apply, val_main_call0_v1_apply,
    val_main_call0_v0_apply, val_main_v3_apply, val_main_v0_apply, val_main_v2_apply, val_main_v1_apply, e0l, e0r, e2,
    Ideal.addf_def, Ideal.mulf_def, Ideal.hostDivf_def, Ideal.hostUnary_exp_def, Ideal.hostNegf_def, Ideal.negf_def,
    Ideal.ofBits_def, Ideal.ofBits_one_f32]
  rfl

end Cert.ReferenceIdeal.RefScore

end
-- ==== Proof.lean ====
/-
  A per-node two-layer perceptron followed by a segment sum, computed two ways, gives the same 4096 bin totals on the
  extended reals.

  Both programs compute, for each of the 1000000 nodes, `score n = (∑ h, silu ((∑ k, x (n, k) · w1 (h, k)) + b1 h) · w2 (0, h)) + b2 0`
  with `silu z = z · 1 / (1 + e^(−z))` (module NodeScore), and then add `score n` into bin `batch n` of 4096 zeros.

  The reference does it on whole arrays: two contractions, the activation spelt with negate, exponential, add and divide
  (module RefScore reads its per-node vector as `scores`).

  The kernel program pads the feature matrix to 62 blocks of 16384 rows and transposes the weights; each grid point computes the
  scores of its block — a matrix product into a zero accumulator, the logistic function, a lane sum (module BodyScore) — and
  writes them as block `t` of a `[62, 1, 16384]` array, which the blocks tile (module RegionScore; the arrays the region finds,
  in terms of the arguments: module EntryArrays); the array is then flattened and its first 1000000 entries kept, which drops
  exactly the scores of the padding rows (module KernelRun).

  The two per-node vectors are one vector, `scores` of the arguments; the segment sum that follows is the same operation on
  both sides, applied to equal operands. The sums run over the same index sets in the same order with the same summands, and
  the logistic function on the extended reals is `1 / (1 + e^(−z))` by definition, so no input needs to be finite for the
  equality. The three frames are the generated frame runs (for the reference, its generated run with the result dropped),
  and the idealization rewrote nothing.
-/
import proofs.«137163_j44057774522748_1_alg».proof.Defs
import proofs.«137163_j44057774522748_1_alg».proof.Proof.Gen.Kernel
import proofs.«137163_j44057774522748_1_alg».proof.Proof.Gen.Kernel.Skeleton
import proofs.«137163_j44057774522748_1_alg».proof.Proof.Gen.Kernel.Launch
import proofs.«137163_j44057774522748_1_alg».proof.Proof.Gen.Kernel.Points
import proofs.«137163_j44057774522748_1_alg».proof.Proof.Gen.Kernel.Frame
import proofs.«137163_j44057774522748_1_alg».proof.Proof.Gen.KernelIdeal
import proofs.«137163_j44057774522748_1_alg».proof.Proof.Gen.KernelIdeal.Skeleton
import proofs.«137163_j44057774522748_1_alg».proof.Proof.Gen.KernelIdeal.Launch
import proofs.«137163_j44057774522748_1_alg».proof.Proof.Gen.KernelIdeal.Points
import proofs.«137163_j44057774522748_1_alg».proof.Proof.Gen.KernelIdeal.Frame
import proofs.«137163_j44057774522748_1_alg».proof.Proof.Gen.ReferenceIdeal
import proofs.«137163_j44057774522748_1_alg».proof.Proof.Gen.ReferenceIdeal.Run
import proofs.«137163_j44057774522748_1_alg».proof.Proof.Gen.ReferenceIdeal.Read
import proofs.«137163_j44057774522748_1_alg».proof.Proof.Gen.Pre_finite_inputs
import proofs.«137163_j44057774522748_1_alg».proof.Proof.KernelRun
import proofs.«137163_j44057774522748_1_alg».proof.Proof.RefScore
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the segment sum, by the same batch indices into the same zeros, of the same vector `scores` of the
    arguments. -/
theorem algebraic : Cert.algebraic_KernelIdeal_ReferenceIdeal := by
  intro m ρ m' ρ' _ hagree
  refine ⟨_, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v12_eq (F := Ideal) _ _ _ _ _ _).trans ?_
  unfold Cert.ReferenceIdeal.Read.val_main_v12 Cert.ReferenceIdeal.Read.val_main_v10 Cert.ReferenceIdeal.Read.val_main_v11
    Cert.ReferenceIdeal.Read.val_main_cst
  rw [Cert.ReferenceIdeal.RefScore.val_main_v9_eq_scores, (hagree c).1, (hagree c).2.1, (hagree c).2.2.1, (hagree c).2.2.2.1,
    (hagree c).2.2.2.2.1, (hagree c).2.2.2.2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
